-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.truncf_extf.Statement Cert.KernelIdeal.S1024x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S_ : Shape := ⟨0, ![]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel

variable [Facts]

def fn {F : FTy → Type} [FloatOps F] (main_arg0 : FVec F S16x2048x128 .f32) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  main_v3
-- ==== Kernel.lean ====
abbrev S16x2048x128 : Shape := ⟨3, ![16, 2048, 128]⟩
abbrev S1x1024x128 : Shape := ⟨3, ![1, 1024, 128]⟩
abbrev S1x2048x128 : Shape := ⟨3, ![1, 2048, 128]⟩
abbrev S1024x128 : Shape := ⟨2, ![1024, 128]⟩
abbrev S2048x128 : Shape := ⟨2, ![2048, 128]⟩
abbrev S128x2048 : Shape := ⟨2, ![128, 2048]⟩
abbrev S1024x2048 : Shape := ⟨2, ![1024, 2048]⟩
abbrev S1024x1 : Shape := ⟨2, ![1024, 1]⟩
abbrev S1x2048 : Shape := ⟨2, ![1, 2048]⟩
abbrev S1024 : Shape := ⟨1, ![1024]⟩

abbrev nBuf : Space → Nat
  | .hbm => 2
  | .vmem => 6
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .local _ .vmem, ⟨0, _⟩ => ⟨S1x1024x128, .f32⟩
  | .local _ .vmem, ⟨1, _⟩ => ⟨S1x1024x128, .f32⟩
  | .local _ .vmem, ⟨2, _⟩ => ⟨S1x2048x128, .f32⟩
  | .local _ .vmem, ⟨3, _⟩ => ⟨S1x2048x128, .f32⟩
  | .local _ .vmem, ⟨4, _⟩ => ⟨S1x1024x128, .f32⟩
  | .local _ .vmem, ⟨5, _⟩ => ⟨S1x1024x128, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  transposes_S2048x128_p1_0_S128x2048 : S2048x128.Transposes [1, 0] S128x2048
  iota_S1024x1_d0_w32 : S1024x1.Iotas .tc 32 [0]
  iota_S1x2048_d1_w32 : S1x2048.Iotas .tc 32 [1]
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S1024_S1024x1 : S1024.ShapeCasts S1024x1
  broadcasts_S1024x1_S1024x128 : S1024x1.Broadcasts S1024x128
  shapeCasts_S1024x128_S1x1024x128 : S1024x128.ShapeCasts S1x1024x128
  dot_S1024x128_S128x2048_S1024x2048_1_0_0_1_n_n_wf : DotDims.WF S1024x128 S128x2048 S1024x2048 [1] [0] [0] [1] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S16x2048x128.size a
  hwx0_0 : ∀ i : grid0.Coords, EltTy.bits .f32 = 32 ∨ (Rect.block (s := S16x2048x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S16x2048x128.size a
  hwx0_1 : ∀ i : grid0.Coords, EltTy.bits .f32 = 32 ∨ (Rect.block (s := S16x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S16x2048x128.size a
  hwx0_2 : ∀ i : grid0.Coords, EltTy.bits .f32 = 32 ∨ (Rect.block (s := S16x2048x128) S1x1024x128.size (cc0_transform_2 i) (hinb0_2 i)).WholeWords (EltTy.packing .f32)

variable [Facts₀]

def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2048x128 : Shape := ⟨3, ![16, 2048, 128]⟩
abbrev S16x2048x2048 : Shape := ⟨3, ![16, 2048, 2048]⟩
abbrev S_ : Shape := ⟨0, ![]⟩
abbrev S2048x2048 : Shape := ⟨2, ![2048, 2048]⟩
abbrev S1x2048x2048 : Shape := ⟨3, ![1, 2048, 2048]⟩
abbrev S16x2048 : Shape := ⟨2, ![16, 2048]⟩
abbrev S16x2048x1 : Shape := ⟨3, ![16, 2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x2048, .f32⟩
  | .hbm, ⟨2, _⟩ => ⟨S_, .f32⟩
  | .hbm, ⟨3, _⟩ => ⟨S16x2048x2048, .f32⟩
  | .hbm, ⟨4, _⟩ => ⟨S16x2048x2048, .f32⟩
  | .hbm, ⟨5, _⟩ => ⟨S2048x2048, .i32⟩
  | .hbm, ⟨6, _⟩ => ⟨S2048x2048, .i32⟩
  | .hbm, ⟨7, _⟩ => ⟨S_, .i32⟩
  | .hbm, ⟨8, _⟩ => ⟨S2048x2048, .i32⟩
  | .hbm, ⟨9, _⟩ => ⟨S2048x2048, .i32⟩
  | .hbm, ⟨10, _⟩ => ⟨S2048x2048, .i1⟩
  | .hbm, ⟨11, _⟩ => ⟨S1x2048x2048, .i1⟩
  | .hbm, ⟨12, _⟩ => ⟨S_, .f32⟩
  | .hbm, ⟨13, _⟩ => ⟨S16x2048x2048, .i1⟩
  | .hbm, ⟨14, _⟩ => ⟨S16x2048x2048, .f32⟩
  | .hbm, ⟨15, _⟩ => ⟨S16x2048x2048, .f32⟩
  | .hbm, ⟨16, _⟩ => ⟨S_, .f32⟩
  | .hbm, ⟨17, _⟩ => ⟨S16x2048, .f32⟩
  | .hbm, ⟨18, _⟩ => ⟨S_, .f32⟩
  | .hbm, ⟨19, _⟩ => ⟨S16x2048, .f32⟩
  | .hbm, ⟨20, _⟩ => ⟨S16x2048, .f32⟩
  | .hbm, ⟨21, _⟩ => ⟨S16x2048x1, .f32⟩
  | .hbm, ⟨22, _⟩ => ⟨S16x2048x2048, .f32⟩
  | .hbm, ⟨23, _⟩ => ⟨S16x2048x2048, .f32⟩
  | .hbm, ⟨24, _⟩ => ⟨S16x2048x2048, .f32⟩
  | .hbm, ⟨25, _⟩ => ⟨S_, .f32⟩
  | .hbm, ⟨26, _⟩ => ⟨S16x2048, .f32⟩
  | .hbm, ⟨27, _⟩ => ⟨S16x2048x1, .f32⟩
  | .hbm, ⟨28, _⟩ => ⟨S16x2048x2048, .f32⟩
  | .hbm, ⟨29, _⟩ => ⟨S16x2048x2048, .f32⟩
  | .hbm, ⟨30, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x128_S16x2048x128_S16x2048x2048_2_2_1_1_0_0_wf : DotDims.WF S16x2048x128 S16x2048x128 S16x2048x2048 [2] [2] [1] [1] [0] [0]
  dot_S16x2048x2048_S16x2048x128_S16x2048x128_2_1_1_2_0_0_wf : DotDims.WF S16x2048x2048 S16x2048x128 S16x2048x128 [2] [1] [1] [2] [0] [0]

variable [Facts₀]

def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf

class Facts : Prop extends Facts₀ where

variable [Facts]
-- ==== Proof.KernelFrame.lean ====
/-
  The frame of the attention program, by hand: the program runs to the end from any memory, faults nowhere and
  leaves its argument array as it found it; and after the run the result array is what the grid's points wrote back.

  The program is one kernel region on a 16 × 2 grid of points (batch entry, half of the query rows). Three windows:
  the query block (1024 rows of the argument array), the key/value block (all 2048 rows of the same batch entry of
  the SAME argument array), and the result block (1024 rows of the result array). The body loads the two input
  blocks whole, computes one value of the result block's shape from them, and stores it whole.

  Two windows read one array, so the array's ownership is dealt between them: one half share each, which is
  enough to read. Nothing else is particular: each input's staging buffer holds that window's block of the argument
  array at every point, whether the block was fetched at that point or kept from the point before, and the result's
  staging buffer holds the body's value of the two blocks.
-/
import proofs.«168816_j9474697855745_2_alg».proof.Proof.Gen.Kernel.Launch
import proofs.«168816_j9474697855745_2_alg».proof.Proof.Gen.Kernel.Skeleton
import proofs.«168816_j9474697855745_2_alg».proof.Proof.Gen.Kernel.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- What the buffers hold when the region is entered: the program is the region alone, so the launch contents. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's staging buffer holds its block at every point: it is fetched at every point, and the body
    leaves it in place. -/
theorem before_q_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key/value window's staging buffer holds its block at every point: at the second half of a batch entry it
    is not fetched again, and it is the same block, which the body left in place. -/
theorem before_kv_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The body on whole staging buffers, the inputs' holding `x0` and `x1` and the result's anything: it ends with the
    inputs' as they were and the result's at the body's value of `x0` and `x1`. -/
theorem body_triple (c : Dev nD) (E : Set ℕ) (i : grid0.Coords)
    (arg2 : Memref sig .tc .vmem S1x1024x128 .f32) (harg2 : arg2.IsWhole)
    (arg3 : Memref sig .tc .vmem S1x2048x128 .f32) (harg3 : arg3.IsWhole)
    (arg4 : Memref sig .tc .vmem S1x1024x128 .f32) (harg4 : arg4.IsWhole)
    (x0 : Vec F S1x1024x128 .f32) (x1 : Vec F S1x2048x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k0_pay1 i x0 x1)) -∗ K ⟨⟩))
      ⊢ wp frame (wpE (defs₀ (F := F)) Variants.none c none) E (cc0__attn_kernel i arg2 harg2 arg3 harg3 arg4 harg4) K := by
  simp only [cc0__attn_kernel_eq_skeleton]; unfold cc0__attn_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz : (![0, 0, 0] : Fin 3 → Nat) = fun _ => 0 := funext fun a => by fin_cases a <;> rfl
  rw [View.read_writes_eq_canon _ _ _ (fun y => ⟨_, List.mem_singleton_self _, View.mem_set_unit_zero hz inb_S1x1024x128_S1x1024x128_0_0_0 y⟩),
    View.canon_unit_zero hz]
  simp only [View.readAt_eq_ld, View.ld_unit_zero (S := S1x1024x128) hz, View.ld_unit_zero (S := S1x2048x128) hz]

/-! ## The proof data -/

/-- Per core: the arrays as the region finds them; after the body at point `t` each input's staging buffer at its
    block and the result's at the body's value of the two blocks; between points nothing is carried but the core's
    other scoped buffers, untouched; the argument array's ownership dealt in halves to the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (grid0.coords t) (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_kv (c : Dev nD) (t : Fin cfg0.N) : (dats m 0 c).after 1 t = iblk m c 1 t := by dsimp only [dats]
theorem after_out (c : Dev nD) (t : Fin cfg0.N) :
    (dats m 0 c).after 2 t = k0_pay1 (grid0.coords t) (iblk m c 0 t) (iblk m c 1 t) := by dsimp only [dats]

theorem before_q (c : Dev nD) (t : Fin cfg0.N) (d) : (dats m 0 c).before 0 t d = iblk m c 0 t :=
  before_q_of m (dats m 0 c) (A_eq m c 0) (after_q m c) t d
theorem before_kv (c : Dev nD) (t : Fin cfg0.N) (d) : (dats m 0 c).before 1 t d = iblk m c 1 t :=
  before_kv_of m (dats m 0 c) (A_eq m c 1) (after_kv m c) t d

/-! ## The body at a point -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_kv]
  rw [show (dats m 0 c).Φ t.succ = (dats m 0 c).Φ t.castSucc from rfl,
    show (dats m 0 c).owesAt () t.succ = (dats m 0 c).owesAt () t.castSucc from rfl,
    after_q, after_kv, after_out]
  iintro ⟨HΦ, Ho, ⟨%d0, H0⟩, ⟨%d1, H1⟩, ⟨%d2, H2⟩⟩
  iapply (body_triple c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact body_at m c t

/-! ## Dealing the argument array to its two readers -/

/-- The two arrays behind the three windows, each held whole, give the windows' holdings: the argument array split
    into its two half shares, one per reading window, the result array whole. -/
theorem deal (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0, bigSep_eq_bigSepL_of_eq [main_arg0, main_v0] (by decide) (by decide)]
  show iprop(((c.tc : Thread nD τ).loc main_arg0 ↦{fullShare} V m c main_arg0) ∗ ((c.tc : Thread nD τ).loc main_v0 ↦{fullShare} V m c main_v0))
    ⊢ iprop(((c.tc : Thread nD τ).loc main_arg0 ↦[(View.whole main_arg0 : View sig .tc _ _ _).set]{fullShare.left} V m c main_arg0)
        ∗ ((c.tc : Thread nD τ).loc main_arg0 ↦[(View.whole main_arg0 : View sig .tc _ _ _).set]{fullShare.right} V m c main_arg0)
        ∗ ((c.tc : Thread nD τ).loc main_v0 ↦[(View.whole main_v0 : View sig .tc _ _ _).set]{fullShare} V m c main_v0))
  rw [View.set_whole, View.set_whole]
  refine (sep_mono (pointsTo_share (PosShare.mem_left_op_right fullShare)).1 .rfl).trans ?_
  iintro ⟨⟨HA₁, HA₂⟩, HO⟩
  isplitl [HA₁]; · iexact HA₁
  isplitl [HA₂]; · iexact HA₂
  iexact HO

/-! ## The run -/

/-- Between points the proof data carry the core's other scoped buffers and nothing else. -/
theorem carried_eq (c : Dev nD) (t : Fin (cfg0.N + 1)) :
    (dats m 0 c).Φ t = Pipeline.scopedRest (Ix := Unit) (Name := ℕ) (U := UR sig nD τ) (Lvl := ℕ) (Val := Elt F) spec0 c := rfl

set_option backward.isDefEq.respectTransparency.types false in
/-- From any memory with zero counters every weakly fair execution of the program terminates, and in every final
    state each window's array holds what the proof data compute: an input its entry contents, the result the entry
    contents overwritten by each point's write-back. -/
theorem run_main : θ_run defs (onTc (τ := τ) (main (F := F))) (s₀ m ρ)
    (fun r => ∀ c : Dev nD, ∀ w, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := deal m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr
      · iempintro
      · iexact H)
    (hin := fun c => by
      rw [carried_eq]; iintro ⟨-, H⟩; iexact H)
    (hout := fun c => by
      rw [carried_eq]; iintro H; isplitr
      · iempintro
      · iexact H)
    (QY := fun _ _ => True)
    (hY := fun c s' => by
      iintro ⟨-, -, HSI⟩; imodintro; isplitr
      · ipureintro; trivial
      · iexact HSI)
    (hQ := fun s h c w => (h c).1 w)

/-- The argument array ends as it began: both windows on it are inputs, and an input's array is never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c 0).trans (((dats m 0 c).arrAt_in 0 rfl _).trans (A_eq m c 0))) (run_main m ρ)

end Cert.Kernel.Hand

end
-- ==== Proof.KernelIdealFrame.lean ====
/-
  The frame of the attention program, by hand: the program runs to the end from any memory, faults nowhere and
  leaves its argument array as it found it; and after the run the result array is what the grid's points wrote back.

  The program is one kernel region on a 16 × 2 grid of points (batch entry, half of the query rows). Three windows:
  the query block (1024 rows of the argument array), the key/value block (all 2048 rows of the same batch entry of
  the SAME argument array), and the result block (1024 rows of the result array). The body loads the two input
  blocks whole, computes one value of the result block's shape from them, and stores it whole.

  Two windows read one array, so the array's ownership is dealt between them: one half share each, which is
  enough to read. Nothing else is particular: each input's staging buffer holds that window's block of the argument
  array at every point, whether the block was fetched at that point or kept from the point before, and the result's
  staging buffer holds the body's value of the two blocks.
-/
import proofs.«168816_j9474697855745_2_alg».proof.Proof.Gen.KernelIdeal.Launch
import proofs.«168816_j9474697855745_2_alg».proof.Proof.Gen.KernelIdeal.Skeleton
import proofs.«168816_j9474697855745_2_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- What the buffers hold when the region is entered: the program is the region alone, so the launch contents. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's staging buffer holds its block at every point: it is fetched at every point, and the body
    leaves it in place. -/
theorem before_q_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key/value window's staging buffer holds its block at every point: at the second half of a batch entry it
    is not fetched again, and it is the same block, which the body left in place. -/
theorem before_kv_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The body on whole staging buffers, the inputs' holding `x0` and `x1` and the result's anything: it ends with the
    inputs' as they were and the result's at the body's value of `x0` and `x1`. -/
theorem body_triple (c : Dev nD) (E : Set ℕ) (i : grid0.Coords)
    (arg2 : Memref sig .tc .vmem S1x1024x128 .f32) (harg2 : arg2.IsWhole)
    (arg3 : Memref sig .tc .vmem S1x2048x128 .f32) (harg3 : arg3.IsWhole)
    (arg4 : Memref sig .tc .vmem S1x1024x128 .f32) (harg4 : arg4.IsWhole)
    (x0 : Vec F S1x1024x128 .f32) (x1 : Vec F S1x2048x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k0_pay1 i x0 x1)) -∗ K ⟨⟩))
      ⊢ wp frame (wpE (defs₀ (F := F)) Variants.none c none) E (cc0__attn_kernel i arg2 harg2 arg3 harg3 arg4 harg4) K := by
  simp only [cc0__attn_kernel_eq_skeleton]; unfold cc0__attn_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz : (![0, 0, 0] : Fin 3 → Nat) = fun _ => 0 := funext fun a => by fin_cases a <;> rfl
  rw [View.read_writes_eq_canon _ _ _ (fun y => ⟨_, List.mem_singleton_self _, View.mem_set_unit_zero hz inb_S1x1024x128_S1x1024x128_0_0_0 y⟩),
    View.canon_unit_zero hz]
  simp only [View.readAt_eq_ld, View.ld_unit_zero (S := S1x1024x128) hz, View.ld_unit_zero (S := S1x2048x128) hz]

/-! ## The proof data -/

/-- Per core: the arrays as the region finds them; after the body at point `t` each input's staging buffer at its
    block and the result's at the body's value of the two blocks; between points nothing is carried but the core's
    other scoped buffers, untouched; the argument array's ownership dealt in halves to the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (grid0.coords t) (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_kv (c : Dev nD) (t : Fin cfg0.N) : (dats m 0 c).after 1 t = iblk m c 1 t := by dsimp only [dats]
theorem after_out (c : Dev nD) (t : Fin cfg0.N) :
    (dats m 0 c).after 2 t = k0_pay1 (grid0.coords t) (iblk m c 0 t) (iblk m c 1 t) := by dsimp only [dats]

theorem before_q (c : Dev nD) (t : Fin cfg0.N) (d) : (dats m 0 c).before 0 t d = iblk m c 0 t :=
  before_q_of m (dats m 0 c) (A_eq m c 0) (after_q m c) t d
theorem before_kv (c : Dev nD) (t : Fin cfg0.N) (d) : (dats m 0 c).before 1 t d = iblk m c 1 t :=
  before_kv_of m (dats m 0 c) (A_eq m c 1) (after_kv m c) t d

/-! ## The body at a point -/

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_kv]
  rw [show (dats m 0 c).Φ t.succ = (dats m 0 c).Φ t.castSucc from rfl,
    show (dats m 0 c).owesAt () t.succ = (dats m 0 c).owesAt () t.castSucc from rfl,
    after_q, after_kv, after_out]
  iintro ⟨HΦ, Ho, ⟨%d0, H0⟩, ⟨%d1, H1⟩, ⟨%d2, H2⟩⟩
  iapply (body_triple c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact body_at m c t

/-! ## Dealing the argument array to its two readers -/

/-- The two arrays behind the three windows, each held whole, give the windows' holdings: the argument array split
    into its two half shares, one per reading window, the result array whole. -/
theorem deal (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0, bigSep_eq_bigSepL_of_eq [main_arg0, main_v0] (by decide) (by decide)]
  show iprop(((c.tc : Thread nD τ).loc main_arg0 ↦{fullShare} V m c main_arg0) ∗ ((c.tc : Thread nD τ).loc main_v0 ↦{fullShare} V m c main_v0))
    ⊢ iprop(((c.tc : Thread nD τ).loc main_arg0 ↦[(View.whole main_arg0 : View sig .tc _ _ _).set]{fullShare.left} V m c main_arg0)
        ∗ ((c.tc : Thread nD τ).loc main_arg0 ↦[(View.whole main_arg0 : View sig .tc _ _ _).set]{fullShare.right} V m c main_arg0)
        ∗ ((c.tc : Thread nD τ).loc main_v0 ↦[(View.whole main_v0 : View sig .tc _ _ _).set]{fullShare} V m c main_v0))
  rw [View.set_whole, View.set_whole]
  refine (sep_mono (pointsTo_share (PosShare.mem_left_op_right fullShare)).1 .rfl).trans ?_
  iintro ⟨⟨HA₁, HA₂⟩, HO⟩
  isplitl [HA₁]; · iexact HA₁
  isplitl [HA₂]; · iexact HA₂
  iexact HO

/-! ## The run -/

/-- Between points the proof data carry the core's other scoped buffers and nothing else. -/
theorem carried_eq (c : Dev nD) (t : Fin (cfg0.N + 1)) :
    (dats m 0 c).Φ t = Pipeline.scopedRest (Ix := Unit) (Name := ℕ) (U := UR sig nD τ) (Lvl := ℕ) (Val := Elt F) spec0 c := rfl

set_option backward.isDefEq.respectTransparency.types false in
/-- From any memory with zero counters every weakly fair execution of the program terminates, and in every final
    state each window's array holds what the proof data compute: an input its entry contents, the result the entry
    contents overwritten by each point's write-back. -/
theorem run_main : θ_run defs (onTc (τ := τ) (main (F := F))) (s₀ m ρ)
    (fun r => ∀ c : Dev nD, ∀ w, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := deal m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr
      · iempintro
      · iexact H)
    (hin := fun c => by
      rw [carried_eq]; iintro ⟨-, H⟩; iexact H)
    (hout := fun c => by
      rw [carried_eq]; iintro H; isplitr
      · iempintro
      · iexact H)
    (QY := fun _ _ => True)
    (hY := fun c s' => by
      iintro ⟨-, -, HSI⟩; imodintro; isplitr
      · ipureintro; trivial
      · iexact HSI)
    (hQ := fun s h c w => (h c).1 w)

/-- The argument array ends as it began: both windows on it are inputs, and an input's array is never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c 0).trans (((dats m 0 c).arrAt_in 0 rfl _).trans (A_eq m c 0))) (run_main m ρ)

end Cert.KernelIdeal.Hand

end
-- ==== Proof.Spec.lean ====
/-
  Masked self-attention of one array against itself, as a function on the extended reals.

  For a batch entry `b` the rows of `q[b]` are at once the queries, the keys and the values. The score of row `r`
  against row `c` is the scaled inner product of the two rows, except on the diagonal, where it is a fixed large
  negative number; a row's weights are the exponentials of its scores less the row's largest score; the output
  row is the weighted average of the rows of `q[b]` under those weights.

  Two arrangements of that computation are written out. `outK` scales the query row before the inner product,
  sums the weighted rows first and multiplies by the reciprocal of the weights' total at the end. `outR` scales the
  inner product, divides each weight by the total, and then sums. `outK_eq_outR` (in SpecLaw) says they agree on
  arrays of real numbers.
-/
import Idealize.ShloMosaic.PureOps.Ideal
import Idealize.ShloMosaic.Lib.ValueIdx

noncomputable section

namespace Cert.SelfAttn

open Idealize.ShloMosaic Idealize.ShloMosaic.ValueIdx

/-- The indices of a `[16, 2048, 128]` array. -/
abbrev QIdx : Type := (⟨3, ![16, 2048, 128]⟩ : Shape).Idx

/-- The score scale, the f32 nearest `1/√128`, as the word both programs spell. -/
def scale : EReal := Ideal.ofBits .f32 0x3DB504F3#32
/-- The value written on the diagonal (`-1e9` as an f32). -/
def maskVal : EReal := Ideal.ofBits .f32 0xCE6E6B28#32
/-- The initial value of a row maximum (`-∞`). -/
def negInf : EReal := Ideal.ofBits .f32 0xFF800000#32
/-- The numerator of the reciprocal (`1.0`). -/
def oneW : EReal := Ideal.ofBits .f32 0x3F800000#32
/-- The initial value of a row sum (`0.0`). -/
def zeroW : EReal := Ideal.ofBits .f32 0x00000000#32

/-- A row's maximum: the fold of `max` over its 2048 entries from `-∞`. -/
def rowMax (s : Fin 2048 → EReal) : EReal := (Finset.univ : Finset (Fin 2048)).fold max negInf s

/-! ## Scaling the query row first, normalising last -/

/-- Score of row `r` against row `c`: the query row is scaled entry by entry before the inner product. -/
def scoreK (q : QIdx → EReal) (b : Fin 16) (r c : Fin 2048) : EReal :=
  if r = c then maskVal else ∑ h : Fin 128, (q (ix3 b r h) * scale) * q (ix3 b c h)

/-- The weight of row `c` for row `r`. -/
def wK (q : QIdx → EReal) (b : Fin 16) (r c : Fin 2048) : EReal :=
  Ideal.exp (scoreK q b r c - rowMax (scoreK q b r))

/-- The weighted sum of the rows, times the reciprocal of the weights' total. -/
def outK (q : QIdx → EReal) : QIdx → EReal := fun i =>
  (∑ c : Fin 2048, wK q (i 0) (i 1) c * q (ix3 (i 0) c (i 2))) * Ideal.div oneW (∑ c : Fin 2048, wK q (i 0) (i 1) c)

/-! ## Scaling the inner product, normalising each weight -/

/-- Score of row `r` against row `c`: the inner product is scaled. -/
def scoreR (q : QIdx → EReal) (b : Fin 16) (r c : Fin 2048) : EReal :=
  if r = c then maskVal else (∑ h : Fin 128, q (ix3 b r h) * q (ix3 b c h)) * scale

/-- The weight of row `c` for row `r`; the row maximum is taken once more against `-∞`. -/
def wR (q : QIdx → EReal) (b : Fin 16) (r c : Fin 2048) : EReal :=
  Ideal.exp (scoreR q b r c - max negInf (rowMax (scoreR q b r)))

/-- The sum over the rows of each normalised weight times the row. -/
def outR (q : QIdx → EReal) : QIdx → EReal := fun i =>
  ∑ c : Fin 2048, Ideal.div (wR q (i 0) (i 1) c) (zeroW + ∑ c' : Fin 2048, wR q (i 0) (i 1) c') * q (ix3 (i 0) c (i 2))

end Cert.SelfAttn

end
-- ==== Proof.LibKeepdims.lean ====
/-
  Layout operations of small shapes read at an index, for row-wise reductions kept as a column and for a vector used as a
  one-row matrix; the float word of minus infinity; the host's exponential and logarithm at an index.

  A row-wise reduction of an `a × b` array (a maximum, a sum) is a vector of `a` entries; to combine it with the array again it
  is cast or broadcast to a column `a × 1` and the column is broadcast along the rows to `a × b`. Read at (p, c), each of these
  is the vector's entry `p`. A vector of `n` entries reshaped to a one-row matrix `1 × n` is the same as the vector broadcast
  along axis 1 of that shape. None of this depends on a program.
-/
import Idealize.ShloMosaic.Lib.Pipeline.Value
import Idealize.ShloMosaic.Lib.ValueIdx
import Idealize.ShloMosaic.PureOps.Ideal.Laws

noncomputable section

namespace Cert.Gcn

open Idealize.ShloMosaic Idealize.ShloMosaic.ValueIdx

/-! ## A column of row values: the keepdims cast and its broadcast along the rows -/

section Columns
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array broadcast in dimension 0 to `[a, 1]` reads, at `(i, u)`, the operand at `i`. -/
theorem broadcastInDim_a_a1_apply {a : ℕ} (hbc : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] hbc x (ix2 i u) = x (ix1 i) := by
  refine broadcastInDim_apply ![0] hbc x (ix2 i u) (ix1 i) fun ax => ?_
  match ax with
  | ⟨0, _⟩ =>
    show i.val = if a = 1 then 0 else i.val
    split
    · have := i.isLt; omega
    · rfl

/-- An `[a, 1]` array broadcast in dimensions (0, 1) to `[a, b]` reads, at `(p, c)`, the operand's one column at row `p`. -/
theorem broadcastInDim_a1_ab_apply {a b : ℕ} (hbc : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] hbc v (ix2 p c) = v (ix2 p (0 : Fin 1)) := by
  refine broadcastInDim_apply ![0, 1] hbc v (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A vector as a one-row matrix -/

/-- A vector of `n` entries reshaped to one row is the vector broadcast along axis 1 of a one-row matrix. -/
theorem reshape_row_eq_broadcast {n : Nat} (x : (⟨1, ![n]⟩ : Shape).Idx → EReal)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ x h = broadcastInDim ⟨2, ![1, n]⟩ ![1] h' x := by
  funext i
  obtain ⟨a, b, rfl⟩ : ∃ (a : Fin 1) (b : Fin n), i = ix2 a b := ⟨i 0, i 1, eq_ix2 i⟩
  have e1 := shapeCast_apply x h (ix2 a b) (ix1 b) (by
    rw [Shape.rowMajor_val_two, Shape.rowMajor_val_one]
    have := a.isLt
    show b.val = a.val * n + b.val
    have : a.val = 0 := by omega
    rw [this]; omega)
  have e2 := broadcastInDim_apply ![1] h' x (ix2 a b) (ix1 b) (by
    intro d
    match d with
    | ⟨0, _⟩ =>
      show b.val = if n = 1 then 0 else b.val
      split
      · have := b.isLt; omega
      · rfl)
  exact e1.trans e2.symm

/-! ## Values on the extended reals -/

/-- The word of `−∞` at f32 is the extended reals' bottom. -/
theorem ofBits_negInf_f32 : Ideal.ofBits .f32 0xFF800000#32 = ⊥ := by simp [Ideal.ofBits, Ideal.ieee]

/-- The host's exponential of an array at an index is the exponential of the entry. -/
theorem hostExp_apply {s : Shape} (v : FVec Ideal s .f32) (i : s.Idx) : Host.exp v i = Ideal.exp (v i) := rfl

/-- The host's logarithm of an array at an index is the logarithm of the entry. -/
theorem hostLog_apply {s : Shape} (v : FVec Ideal s .f32) (i : s.Idx) : Host.log v i = Ideal.log (v i) := rfl

end Cert.Gcn

end
-- ==== Proof.KernelPayload.lean ====
/-
  The arithmetic of one block of the masked self-attention kernel, read at an index on the extended reals.

  For batch entry b and row block qi the kernel holds two blocks of q[b]: the 1024 query rows qi·1024 … qi·1024 + 1023
  and all 2048 rows, which serve as keys and as values. It scales each query entry, takes the inner product of every
  scaled query row with every key row, overwrites the entries where the query row, counted in the whole array, is the
  key row (the diagonal) with a fixed large negative number, subtracts each row's maximum, exponentiates, sums the
  value rows under those weights, and multiplies by the reciprocal of the row's total weight.

  Read at (0, r, h) that is: the sum over c of w(r, c) · q[b, c, h], times 1 / Σ_c w(r, c), with
  w(r, c) = exp (s(r, c) − max_c' s(r, c')) and s(r, c) the masked score of row qi·1024 + r against row c — the
  specification's `outK` at (b, qi·1024 + r, h). The steps below read each product, each reduction, the mask and each
  change of layout at explicit coordinates and then join them; on the extended reals a change of float format is the
  identity, so the two narrowings before the products leave the values as they are.
-/
import proofs.«168816_j9474697855745_2_alg».proof.Proof.Gen.KernelIdeal.Skeleton
import proofs.«168816_j9474697855745_2_alg».proof.Proof.Spec
import proofs.«168816_j9474697855745_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen

theorem matmul_qk_lhs0 (j : S1024x2048.Idx) (q : dot_S1024x128_S128x2048_S1024x2048_1_0_0_1_n_n.contr.Idx) : (dot_S1024x128_S128x2048_S1024x2048_1_0_0_1_n_n.lhsIdx j q 0).val = (j 0).val := by
  unfold DotDims.lhsIdx
  rw [dif_neg (show ¬(0 : Fin S1024x128.rank) ∈ dot_S1024x128_S128x2048_S1024x2048_1_0_0_1_n_n.lhsBatch by decide), dif_pos (show (0 : Fin S1024x128.rank) ∈ dot_S1024x128_S128x2048_S1024x2048_1_0_0_1_n_n.lhsNonContracting by decide)]
  rfl
theorem matmul_qk_lhs1 (j : S1024x2048.Idx) (q : dot_S1024x128_S128x2048_S1024x2048_1_0_0_1_n_n.contr.Idx) : (dot_S1024x128_S128x2048_S1024x2048_1_0_0_1_n_n.lhsIdx j q 1).val = (q ⟨0, by decide⟩).val :=
  dot_S1024x128_S128x2048_S1024x2048_1_0_0_1_n_n.lhsIdx_val_of_single rfl j q
theorem matmul_qk_rhs0 (j : S1024x2048.Idx) (q : dot_S1024x128_S128x2048_S1024x2048_1_0_0_1_n_n.contr.Idx) : (dot_S1024x128_S128x2048_S1024x2048_1_0_0_1_n_n.rhsIdx j q 0).val = (q ⟨0, by decide⟩).val :=
  dot_S1024x128_S128x2048_S1024x2048_1_0_0_1_n_n.rhsIdx_val_of_single rfl j q
theorem matmul_qk_rhs1 (j : S1024x2048.Idx) (q : dot_S1024x128_S128x2048_S1024x2048_1_0_0_1_n_n.contr.Idx) : (dot_S1024x128_S128x2048_S1024x2048_1_0_0_1_n_n.rhsIdx j q 1).val = (j 1).val := by
  unfold DotDims.rhsIdx
  rw [dif_neg (show ¬(1 : Fin S128x2048.rank) ∈ dot_S1024x128_S128x2048_S1024x2048_1_0_0_1_n_n.rhsBatch by decide), dif_pos (show (1 : Fin S128x2048.rank) ∈ dot_S1024x128_S128x2048_S1024x2048_1_0_0_1_n_n.rhsNonContracting by decide)]
  rfl

/-- The first product at (r, c): row r of the left factor against column c of the right one, over the 128 shared coordinates. -/
theorem matmul_qk_apply (A : FVec Ideal S1024x128 .bf16) (B : FVec Ideal S128x2048 .bf16) (r : Fin 1024) (c : Fin 2048) :
    matmul dot_S1024x128_S128x2048_S1024x2048_1_0_0_1_n_n none A B (constant (F := Ideal) S1024x2048 .f32 0x00000000#32) (ix2 r c)
      = ∑ k : Fin 128, A (ix2 r k) * B (ix2 k c) := by
  show FloatOps.matmul dot_S1024x128_S128x2048_S1024x2048_1_0_0_1_n_n none A B (constant (F := Ideal) S1024x2048 .f32 0x00000000#32) (ix2 r c) = _
  rw [Ideal.matmul_constant_zero_apply, ← Equiv.sum_comp (contrEquiv1 dot_S1024x128_S128x2048_S1024x2048_1_0_0_1_n_n 128 rfl rfl).symm]
  refine Finset.sum_congr rfl fun k _ => ?_
  have hk := contrEquiv1_symm_val dot_S1024x128_S128x2048_S1024x2048_1_0_0_1_n_n 128 rfl rfl k
  have el : dot_S1024x128_S128x2048_S1024x2048_1_0_0_1_n_n.lhsIdx (ix2 r c) ((contrEquiv1 dot_S1024x128_S128x2048_S1024x2048_1_0_0_1_n_n 128 rfl rfl).symm k) = ix2 r k := funext fun a => Fin.ext (by
    match a with
    | ⟨0, _⟩ => exact matmul_qk_lhs0 _ _
    | ⟨1, _⟩ => exact (matmul_qk_lhs1 _ _).trans hk)
  have er : dot_S1024x128_S128x2048_S1024x2048_1_0_0_1_n_n.rhsIdx (ix2 r c) ((contrEquiv1 dot_S1024x128_S128x2048_S1024x2048_1_0_0_1_n_n 128 rfl rfl).symm k) = ix2 k c := funext fun a => Fin.ext (by
    match a with
    | ⟨0, _⟩ => exact (matmul_qk_rhs0 _ _).trans hk
    | ⟨1, _⟩ => exact matmul_qk_rhs1 _ _)
  rw [el, er]

theorem matmul_wv_lhs0 (j : S1024x128.Idx) (q : dot_S1024x2048_S2048x128_S1024x128_1_0_0_1_n_n.contr.Idx) : (dot_S1024x2048_S2048x128_S1024x128_1_0_0_1_n_n.lhsIdx j q 0).val = (j 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem matmul_wv_lhs1 (j : S1024x128.Idx) (q : dot_S1024x2048_S2048x128_S1024x128_1_0_0_1_n_n.contr.Idx) : (dot_S1024x2048_S2048x128_S1024x128_1_0_0_1_n_n.lhsIdx j q 1).val = (q ⟨0, by decide⟩).val :=
  dot_S1024x2048_S2048x128_S1024x128_1_0_0_1_n_n.lhsIdx_val_of_single rfl j q
theorem matmul_wv_rhs0 (j : S1024x128.Idx) (q : dot_S1024x2048_S2048x128_S1024x128_1_0_0_1_n_n.contr.Idx) : (dot_S1024x2048_S2048x128_S1024x128_1_0_0_1_n_n.rhsIdx j q 0).val = (q ⟨0, by decide⟩).val :=
  dot_S1024x2048_S2048x128_S1024x128_1_0_0_1_n_n.rhsIdx_val_of_single rfl j q
theorem matmul_wv_rhs1 (j : S1024x128.Idx) (q : dot_S1024x2048_S2048x128_S1024x128_1_0_0_1_n_n.contr.Idx) : (dot_S1024x2048_S2048x128_S1024x128_1_0_0_1_n_n.rhsIdx j q 1).val = (j 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The second product at (r, h): row r of the weights against column h of the values, over the 2048 shared coordinates. -/
theorem matmul_wv_apply (W : FVec Ideal S1024x2048 .bf16) (V : FVec Ideal S2048x128 .bf16) (r : Fin 1024) (h : Fin 128) :
    matmul dot_S1024x2048_S2048x128_S1024x128_1_0_0_1_n_n none W V (constant (F := Ideal) S1024x128 .f32 0x00000000#32) (ix2 r h)
      = ∑ k : Fin 2048, W (ix2 r k) * V (ix2 k h) := by
  show FloatOps.matmul dot_S1024x2048_S2048x128_S1024x128_1_0_0_1_n_n none W V (constant (F := Ideal) S1024x128 .f32 0x00000000#32) (ix2 r h) = _
  rw [Ideal.matmul_constant_zero_apply, ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 r h) ((contrEquiv1 dot_S1024x2048_S2048x128_S1024x128_1_0_0_1_n_n 2048 rfl rfl).symm k) = ix2 r k := funext fun a => Fin.ext (by
    match a with
    | ⟨0, _⟩ => exact matmul_wv_lhs0 _ _
    | ⟨1, _⟩ => exact (matmul_wv_lhs1 _ _).trans hk)
  have er : dot_S1024x2048_S2048x128_S1024x128_1_0_0_1_n_n.rhsIdx (ix2 r h) ((contrEquiv1 dot_S1024x2048_S2048x128_S1024x128_1_0_0_1_n_n 2048 rfl rfl).symm k) = ix2 k h := funext fun a => Fin.ext (by
    match a with
    | ⟨0, _⟩ => exact (matmul_wv_rhs0 _ _).trans hk
    | ⟨1, _⟩ => exact matmul_wv_rhs1 _ _)
  rw [el, er]

/-! ## The diagonal test -/

/-- The word comparison of (n·1024 + r) with c, all three below 2³², is the bit of their equality as numbers. -/
theorem diag_word (n r c : Nat) (hn : n < 2) (hr : r < 1024) (hc : c < 2048) :
    IntOp.cmpi .eq (IntOp.addi (Scalar.muli (BitVec.ofNat 32 n) 1024#32) (BitVec.ofNat 32 r)) (BitVec.ofNat 32 c)
      = if n * 1024 + r = c then 1#1 else 0#1 := by
  have e : IntOp.addi (Scalar.muli (BitVec.ofNat 32 n) 1024#32) (BitVec.ofNat 32 r) = BitVec.ofNat 32 (n * 1024 + r) := by
    show BitVec.ofNat 32 n * BitVec.ofNat 32 1024 + BitVec.ofNat 32 r = _
    rw [← BitVec.ofNat_mul, ← BitVec.ofNat_add]
  rw [e]
  show BitVec.ofBool (BitVec.ofNat 32 (n * 1024 + r) == BitVec.ofNat 32 c) = _
  by_cases h : n * 1024 + r = c
  · rw [if_pos h, h, beq_self_eq_true]; rfl
  · rw [if_neg h]
    have hne : ¬ BitVec.ofNat 32 (n * 1024 + r) = BitVec.ofNat 32 c := by
      intro he
      have h2 := congrArg BitVec.toNat he
      simp only [BitVec.toNat_ofNat] at h2
      omega
    rw [beq_eq_false_iff_ne.mpr hne]; rfl

/-- The mask at (r, c): set exactly when the block's row r, counted in the whole array, is column c. -/
theorem mask_apply (i : grid0.Coords) (r : Fin 1024) (c : Fin 2048) :
    cmpi .eq
      (broadcastTo S1024x2048 (addi (broadcast S1024x1 (Scalar.muli (BitVec.ofNat 32 (i 1).val) 1024#32)) (iota .tc S1024x1 32 [0] iota_S1024x1_d0_w32)) broadcasts_S1024x1_S1024x2048)
      (broadcastTo S1024x2048 (iota .tc S1x2048 32 [1] iota_S1x2048_d1_w32) broadcasts_S1x2048_S1024x2048) (ix2 r c)
    = if (i 1).val * 1024 + r.val = c.val then 1#1 else 0#1 := by
  have e1 : broadcastTo S1024x2048 (addi (broadcast S1024x1 (Scalar.muli (BitVec.ofNat 32 (i 1).val) 1024#32)) (iota .tc S1024x1 32 [0] iota_S1024x1_d0_w32)) broadcasts_S1024x1_S1024x2048 (ix2 r c)
      = IntOp.addi (Scalar.muli (BitVec.ofNat 32 (i 1).val) 1024#32) (BitVec.ofNat 32 r.val) :=
    (Cert.Gcn.broadcastTo_a1_ab_apply _ broadcasts_S1024x1_S1024x2048 r c).trans
      (congrArg (IntOp.addi (Scalar.muli (BitVec.ofNat 32 (i 1).val) 1024#32)) (iota_single_apply .tc S1024x1 32 0 iota_S1024x1_d0_w32 (ix2 r (0 : Fin 1))))
  have e2 : broadcastTo S1024x2048 (iota .tc S1x2048 32 [1] iota_S1x2048_d1_w32) broadcasts_S1x2048_S1024x2048 (ix2 r c) = BitVec.ofNat 32 c.val :=
    (broadcastTo_1b_ab_apply _ broadcasts_S1x2048_S1024x2048 r c).trans (iota_single_apply .tc S1x2048 32 1 iota_S1x2048_d1_w32 (ix2 (0 : Fin 1) c))
  have hq : (i 1).val < 2 := (i 1).isLt
  exact (congrArg₂ (IntOp.cmpi .eq) e1 e2).trans (diag_word _ _ _ hq r.isLt c.isLt)

/-! ## The row reductions -/

/-- The row maximum at r: the fold of max over the row's 2048 entries from minus infinity. -/
theorem rowmax_apply (S : FVec Ideal S1024x2048 .f32) (r : Fin 1024) :
    multiReduction (F := Ideal) .maximumf [1] S1024 S 0xFF800000#32 reduces_S1024x2048_S1024 (.inl rfl) rfl (ix1 r)
      = (Finset.univ : Finset (Fin 2048)).fold max SelfAttn.negInf (fun c => S (ix2 r c)) := by
  refine (Ideal.multiReduction_maximumf_single S _ reduces_S1024x2048_S1024 _ _ (ix1 r)).trans ?_
  have hl : ∀ c : Fin 2048, reduces_S1024x2048_S1024.lift (ix1 r) c = ix2 r c := fun c => funext fun a => Fin.ext (by
    match a with
    | ⟨0, _⟩ => rfl
    | ⟨1, _⟩ => rfl)
  exact congrArg (fun f : Fin 2048 → EReal => (Finset.univ : Finset (Fin 2048)).fold max SelfAttn.negInf f) (funext fun c => congrArg S (hl c))

/-- The row sum at r: the sum of the row's 2048 entries. -/
theorem rowsum_apply (W : FVec Ideal S1024x2048 .f32) (r : Fin 1024) :
    multiReduction (F := Ideal) .add [1] S1024 W 0x00000000#32 reduces_S1024x2048_S1024 (.inl rfl) rfl (ix1 r)
      = ∑ c : Fin 2048, W (ix2 r c) := by
  refine (Ideal.multiReduction_add_single W _ reduces_S1024x2048_S1024 _ _ (ix1 r)).trans ?_
  have hl : ∀ c : Fin 2048, reduces_S1024x2048_S1024.lift (ix1 r) c = ix2 r c := fun c => funext fun a => Fin.ext (by
    match a with
    | ⟨0, _⟩ => rfl
    | ⟨1, _⟩ => rfl)
  exact Finset.sum_congr rfl fun c _ => congrArg W (hl c)

/-! ## The payload in stages

The block's arithmetic, cut where a reduction or a product needs a whole row: the scaled query rows and the key rows,
the mask, the masked scores, a row's maximum spread over the row, the weights, the reciprocal of a row's total spread
over the output row, and the result. Each stage is read at an index below. -/

/-- The query block's rows, each entry scaled. -/
def qs (x0 : Vec Ideal S1x1024x128 .f32) : FVec Ideal S1024x128 .bf16 :=
  have v1 : FVec Ideal S1024x128 .f32 := shapeCast S1024x128 x0 shapeCasts_S1x1024x128_S1024x128
  have cst : Ideal .f32 := Scalar.ofBits .f32 0x3DB504F3#32
  have v4 : FVec Ideal S1024x128 .f32 := broadcast S1024x128 cst
  have v5 : FVec Ideal S1024x128 .f32 := mulf v1 v4
  truncf .bf16 v5 bitsLt_bf16_f32

/-- The rows of the batch entry, which are the keys and the values. -/
def kv (x2 : Vec Ideal S1x2048x128 .f32) : FVec Ideal S2048x128 .bf16 :=
  have v3 : FVec Ideal S2048x128 .f32 := shapeCast S2048x128 x2 shapeCasts_S1x2048x128_S2048x128
  truncf .bf16 v3 bitsLt_bf16_f32

/-- The keys with rows and columns exchanged. -/
def kT (x2 : Vec Ideal S1x2048x128 .f32) : FVec Ideal S128x2048 .bf16 :=
  transpose S128x2048 [1, 0] (kv x2) transposes_S2048x128_p1_0_S128x2048

/-- The mask of the block's diagonal entries. -/
def maskV (i : grid0.Coords) : IVec S1024x2048 1 :=
  let arg1 : BitVec 32 := BitVec.ofNat 32 (i 1).val
  let v10 : BitVec 32 := Scalar.muli arg1 1024#32
  have v11 : IVec S1024x1 32 := iota .tc S1024x1 32 [0] iota_S1024x1_d0_w32
  have v12 : IVec S1024x1 32 := broadcast S1024x1 v10
  have v13 : IVec S1024x1 32 := addi v12 v11
  have v14 : IVec S1x2048 32 := iota .tc S1x2048 32 [1] iota_S1x2048_d1_w32
  have v15 : IVec S1024x2048 32 := broadcastTo S1024x2048 v13 broadcasts_S1024x1_S1024x2048
  have v16 : IVec S1024x2048 32 := broadcastTo S1024x2048 v14 broadcasts_S1x2048_S1024x2048
  cmpi .eq v15 v16

/-- The scores with the diagonal overwritten. -/
def masked (i : grid0.Coords) (x0 : Vec Ideal S1x1024x128 .f32) (x2 : Vec Ideal S1x2048x128 .f32) : FVec Ideal S1024x2048 .f32 :=
  have cst_5 : FVec Ideal S1024x2048 .f32 := constant S1024x2048 .f32 0x00000000#32
  have v9 : FVec Ideal S1024x2048 .f32 := matmul dot_S1024x128_S128x2048_S1024x2048_1_0_0_1_n_n none (qs x0) (kT x2) cst_5
  have cst_6 : Ideal .f32 := Scalar.ofBits .f32 0xCE6E6B28#32
  have v18 : FVec Ideal S1024x2048 .f32 := broadcast S1024x2048 cst_6
  select (maskV i) v18 v9

/-- Each row's maximum, copied along the row. -/
def rowMaxV (S : FVec Ideal S1024x2048 .f32) : FVec Ideal S1024x2048 .f32 :=
  have v20 : FVec Ideal S1024 .f32 := multiReduction .maximumf [1] S1024 S 0xFF800000#32 reduces_S1024x2048_S1024 (.inl rfl) rfl
  have v21 : FVec Ideal S1024x1 .f32 := shapeCast S1024x1 v20 shapeCasts_S1024_S1024x1
  broadcastTo S1024x2048 v21 broadcasts_S1024x1_S1024x2048

/-- The weights: the exponential of each score less its row's maximum. -/
def weights (S : FVec Ideal S1024x2048 .f32) : FVec Ideal S1024x2048 .f32 :=
  exp (subf S (rowMaxV S))

/-- The reciprocal of each row's total weight, copied along the output row. -/
def recip (W : FVec Ideal S1024x2048 .f32) : FVec Ideal S1024x128 .f32 :=
  have v27 : FVec Ideal S1024 .f32 := multiReduction .add [1] S1024 W 0x00000000#32 reduces_S1024x2048_S1024 (.inl rfl) rfl
  have v28 : FVec Ideal S1024x1 .f32 := shapeCast S1024x1 v27 shapeCasts_S1024_S1024x1
  have cst_10 : Ideal .f32 := Scalar.ofBits .f32 0x3F800000#32
  have v30 : FVec Ideal S1024x1 .f32 := broadcast S1024x1 cst_10
  have v31 : FVec Ideal S1024x1 .f32 := divf v30 v28
  broadcastTo S1024x128 v31 broadcasts_S1024x1_S1024x128

/-- The block written back: the weighted sum of the value rows times the reciprocal of the total weight. -/
def result (W : FVec Ideal S1024x2048 .f32) (V : FVec Ideal S2048x128 .bf16) : FVec Ideal S1x1024x128 .f32 :=
  have v25 : FVec Ideal S1024x2048 .bf16 := truncf .bf16 W bitsLt_bf16_f32
  have cst_9 : FVec Ideal S1024x128 .f32 := constant S1024x128 .f32 0x00000000#32
  have v29 : FVec Ideal S1024x128 .f32 := matmul dot_S1024x2048_S2048x128_S1024x128_1_0_0_1_n_n none v25 V cst_9
  have v33 : FVec Ideal S1024x128 .f32 := mulf v29 (recip W)
  shapeCast S1x1024x128 v33 shapeCasts_S1024x128_S1x1024x128

/-- The kernel's payload is these stages composed. -/
theorem pay_eq (i : grid0.Coords) (x0 : Vec Ideal S1x1024x128 .f32) (x2 : Vec Ideal S1x2048x128 .f32) :
    Gen.k0_pay1 (F := Ideal) i x0 x2 = result (weights (masked i x0 x2)) (kv x2) := rfl

/-! ## Each stage at an index -/

/-- A scaled query entry. -/
theorem qs_apply (x0 : Vec Ideal S1x1024x128 .f32) (r : Fin 1024) (k : Fin 128) :
    qs x0 (ix2 r k) = x0 (ix3 (0 : Fin 1) r k) * SelfAttn.scale :=
  congrArg (· * SelfAttn.scale) (shapeCast_1ab_ab_apply x0 shapeCasts_S1x1024x128_S1024x128 r k)

/-- A key (or value) entry. -/
theorem kv_apply (x2 : Vec Ideal S1x2048x128 .f32) (c : Fin 2048) (k : Fin 128) :
    kv x2 (ix2 c k) = x2 (ix3 (0 : Fin 1) c k) :=
  shapeCast_1ab_ab_apply x2 shapeCasts_S1x2048x128_S2048x128 c k

/-- An entry of the exchanged keys. -/
theorem kT_apply (x2 : Vec Ideal S1x2048x128 .f32) (k : Fin 128) (c : Fin 2048) :
    kT x2 (ix2 k c) = x2 (ix3 (0 : Fin 1) c k) :=
  (transpose_ix2_apply (kv x2) transposes_S2048x128_p1_0_S128x2048 k c).trans (kv_apply x2 c k)

/-- The mask's bit at (r, c). -/
theorem maskV_apply (i : grid0.Coords) (r : Fin 1024) (c : Fin 2048) :
    maskV i (ix2 r c) = if (i 1).val * 1024 + r.val = c.val then 1#1 else 0#1 := mask_apply i r c

/-- A masked score: the fixed value on the diagonal, elsewhere the inner product of the scaled query row with the key row. -/
theorem masked_apply (i : grid0.Coords) (x0 : Vec Ideal S1x1024x128 .f32) (x2 : Vec Ideal S1x2048x128 .f32)
    (r : Fin 1024) (c : Fin 2048) :
    masked i x0 x2 (ix2 r c) = if (i 1).val * 1024 + r.val = c.val then SelfAttn.maskVal
      else ∑ k : Fin 128, (x0 (ix3 (0 : Fin 1) r k) * SelfAttn.scale) * x2 (ix3 (0 : Fin 1) c k) := by
  have hm := maskV_apply i r c
  have hs : matmul dot_S1024x128_S128x2048_S1024x2048_1_0_0_1_n_n none (qs x0) (kT x2) (constant (F := Ideal) S1024x2048 .f32 0x00000000#32) (ix2 r c)
      = ∑ k : Fin 128, (x0 (ix3 (0 : Fin 1) r k) * SelfAttn.scale) * x2 (ix3 (0 : Fin 1) c k) :=
    (matmul_qk_apply (qs x0) (kT x2) r c).trans (Finset.sum_congr rfl fun k _ => by rw [qs_apply, kT_apply])
  show Scalar.select (maskV i (ix2 r c)) SelfAttn.maskVal (matmul dot_S1024x128_S128x2048_S1024x2048_1_0_0_1_n_n none (qs x0) (kT x2) (constant (F := Ideal) S1024x2048 .f32 0x00000000#32) (ix2 r c)) = _
  rw [hm, hs]
  by_cases h : (i 1).val * 1024 + r.val = c.val
  · rw [if_pos h, if_pos h]; exact select_one _ _
  · rw [if_neg h, if_neg h]; exact select_zero _ _

/-- The copied row maximum at (r, c): the fold of max over row r from minus infinity. -/
theorem rowMaxV_apply (S : FVec Ideal S1024x2048 .f32) (r : Fin 1024) (c : Fin 2048) :
    rowMaxV S (ix2 r c) = (Finset.univ : Finset (Fin 2048)).fold max SelfAttn.negInf (fun c' => S (ix2 r c')) := by
  unfold rowMaxV
  exact (Cert.Gcn.broadcastTo_a1_ab_apply _ broadcasts_S1024x1_S1024x2048 r c).trans
    ((Cert.Gcn.shapeCast_a_a1_apply _ shapeCasts_S1024_S1024x1 r (0 : Fin 1)).trans (rowmax_apply S r))

/-- A weight: the exponential of the score less the row's maximum. -/
theorem weights_apply (S : FVec Ideal S1024x2048 .f32) (r : Fin 1024) (c : Fin 2048) :
    weights S (ix2 r c)
      = Ideal.exp (S (ix2 r c) - (Finset.univ : Finset (Fin 2048)).fold max SelfAttn.negInf (fun c' => S (ix2 r c'))) :=
  congrArg (fun m => Ideal.exp (S (ix2 r c) - m)) (rowMaxV_apply S r c)

/-- The copied reciprocal at (r, h): one over the total of row r's weights. -/
theorem recip_apply (W : FVec Ideal S1024x2048 .f32) (r : Fin 1024) (h : Fin 128) :
    recip W (ix2 r h) = Ideal.div SelfAttn.oneW (∑ c : Fin 2048, W (ix2 r c)) := by
  unfold recip
  refine (Cert.Gcn.broadcastTo_a1_ab_apply _ broadcasts_S1024x1_S1024x128 r h).trans ?_
  exact congrArg (Ideal.div SelfAttn.oneW)
    ((Cert.Gcn.shapeCast_a_a1_apply _ shapeCasts_S1024_S1024x1 r (0 : Fin 1)).trans (rowsum_apply W r))

/-- The result at (0, r, h): the weighted sum of the values' column h, times the reciprocal of the total weight. -/
theorem result_apply (W : FVec Ideal S1024x2048 .f32) (V : FVec Ideal S2048x128 .bf16) (r : Fin 1024) (h : Fin 128) :
    result W V (ix3 (0 : Fin 1) r h)
      = (∑ c : Fin 2048, W (ix2 r c) * V (ix2 c h)) * Ideal.div SelfAttn.oneW (∑ c : Fin 2048, W (ix2 r c)) := by
  unfold result
  refine (shapeCast_ab_1ab_apply _ shapeCasts_S1024x128_S1x1024x128 (0 : Fin 1) r h).trans ?_
  exact congrArg₂ (· * ·) (matmul_wv_apply (truncf .bf16 W bitsLt_bf16_f32) V r h) (recip_apply W r h)

/-! ## The payload against the specification -/

/-- The block the kernel writes for batch entry b and row block qi, read at (0, r, h), is the specification's output at
(b, qi·1024 + r, h), when the two blocks it read are the rows of q[b] they are meant to be. -/
theorem payload_apply (q : SelfAttn.QIdx → EReal) (i : grid0.Coords) (b : Fin 16) (qi : Fin 2)
    (hb : (i 0).val = b.val) (hqi : (i 1).val = qi.val)
    (x0 : Vec Ideal S1x1024x128 .f32) (x2 : Vec Ideal S1x2048x128 .f32)
    (hx0 : ∀ (r : Fin 1024) (h : Fin 128),
      x0 (ix3 (0 : Fin 1) r h) = q (ix3 b ⟨qi.val * 1024 + r.val, by have := qi.isLt; have := r.isLt; omega⟩ h))
    (hx2 : ∀ (c : Fin 2048) (h : Fin 128), x2 (ix3 (0 : Fin 1) c h) = q (ix3 b c h))
    (r : Fin 1024) (h : Fin 128) :
    Gen.k0_pay1 (F := Ideal) i x0 x2 (ix3 (0 : Fin 1) r h)
      = SelfAttn.outK q (ix3 b ⟨qi.val * 1024 + r.val, by have := qi.isLt; have := r.isLt; omega⟩ h) := by
  have hR : qi.val * 1024 + r.val < 2048 := by have := qi.isLt; have := r.isLt; omega
  have hS : ∀ c : Fin 2048, masked i x0 x2 (ix2 r c) = SelfAttn.scoreK q b ⟨qi.val * 1024 + r.val, hR⟩ c := by
    intro c
    rw [masked_apply, hqi]
    unfold SelfAttn.scoreK
    by_cases hd : qi.val * 1024 + r.val = c.val
    · rw [if_pos hd, if_pos (Fin.ext hd)]
    · rw [if_neg hd, if_neg (fun e => hd (congrArg Fin.val e))]
      exact Finset.sum_congr rfl fun k _ => by rw [hx0, hx2]
  have hW : ∀ c : Fin 2048, weights (masked i x0 x2) (ix2 r c) = SelfAttn.wK q b ⟨qi.val * 1024 + r.val, hR⟩ c := by
    intro c
    rw [weights_apply, hS c]
    unfold SelfAttn.wK SelfAttn.rowMax
    exact congrArg (fun f : Fin 2048 → EReal => Ideal.exp (SelfAttn.scoreK q b ⟨qi.val * 1024 + r.val, hR⟩ c
      - (Finset.univ : Finset (Fin 2048)).fold max SelfAttn.negInf f)) (funext hS)
  rw [pay_eq, result_apply]
  show _ = (∑ c : Fin 2048, SelfAttn.wK q b ⟨qi.val * 1024 + r.val, hR⟩ c * q (ix3 b c h))
    * Ideal.div SelfAttn.oneW (∑ c : Fin 2048, SelfAttn.wK q b ⟨qi.val * 1024 + r.val, hR⟩ c)
  simp only [hW, kv_apply, hx2]

end Cert.KernelIdeal.Hand

end
-- ==== Proof.KernelIdealValue.lean ====
/-
  What the result array holds after the run, at the extended reals: the masked self-attention of the argument
  array, `outK`, index by index.

  Point `(b, half)` of the grid writes back rows `half·1024 … half·1024 + 1023` of batch entry `b`. Its query block is
  those rows of the argument array, its key/value block all 2048 rows of batch entry `b`, so the body's value of
  the two blocks at row `r` of the block is `outK` of the argument array at row `half·1024 + r`. The 32 blocks tile
  the result array, so the array ends holding `outK` everywhere.
-/
import proofs.«168816_j9474697855745_2_alg».proof.Proof.KernelIdealFrame
import proofs.«168816_j9474697855745_2_alg».proof.Proof.KernelPayload
import proofs.«168816_j9474697855745_2_alg».proof.Proof.Spec

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The three index maps over the grid: the query and result windows sit at block `(b, half, 0)`, the key/value
    window at block `(b, 0, 0)`. -/
theorem idx_facts : ∀ t : Fin cfg0.N,
    win0_0.index t (0 : Fin 3) = (grid0.coords t 0).val ∧ win0_0.index t (1 : Fin 3) = (grid0.coords t 1).val ∧ win0_0.index t (2 : Fin 3) = 0
    ∧ win0_1.index t (0 : Fin 3) = (grid0.coords t 0).val ∧ win0_1.index t (1 : Fin 3) = 0 ∧ win0_1.index t (2 : Fin 3) = 0
    ∧ win0_2.index t (0 : Fin 3) = (grid0.coords t 0).val ∧ win0_2.index t (1 : Fin 3) = (grid0.coords t 1).val ∧ win0_2.index t (2 : Fin 3) = 0
    ∧ (grid0.coords t 0).val < 16 ∧ (grid0.coords t 1).val < 2 :=
  (by decide +kernel : ∀ t : Fin grid0.N, _)

/-- Every (batch entry, half) is some point's. -/
theorem point_of : ∀ (b : Fin 16) (half : Fin 2), ∃ t : Fin cfg0.N, (grid0.coords t 0).val = b.val ∧ (grid0.coords t 1).val = half.val :=
  (by decide +kernel : ∀ (b : Fin 16) (half : Fin 2), ∃ t : Fin grid0.N, (grid0.coords t 0).val = b.val ∧ (grid0.coords t 1).val = half.val)

/-- The query block at a point, entry by entry: rows `half·1024 + r` of batch entry `b`. -/
theorem qblock_apply (c : Dev nD) (t : Fin cfg0.N) (b : Fin 16) (half : Fin 2)
    (hb : (grid0.coords t 0).val = b.val) (hh : (grid0.coords t 1).val = half.val) (r : Fin 1024) (h : Fin 128) :
    iblk m c 0 t (ix3 (0 : Fin 1) r h)
      = V m c main_arg0 (ix3 b ⟨half.val * 1024 + r.val, by have := half.isLt; have := r.isLt; omega⟩ h) := by
  obtain ⟨a0, a1, a2, -⟩ := idx_facts t
  show V m c main_arg0 (((cfg0.win 0).blk t).view.emb (ix3 (0 : Fin 1) r h)) = _
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 1024 + 1 * r.val = half.val * 1024 + r.val; omega
  | ⟨2, _⟩ => show win0_0.index t (2 : Fin 3) * 128 + 1 * h.val = h.val; omega

/-- The key/value block at a point, entry by entry: all the rows of batch entry `b`. -/
theorem kvblock_apply (c : Dev nD) (t : Fin cfg0.N) (b : Fin 16)
    (hb : (grid0.coords t 0).val = b.val) (r : Fin 2048) (h : Fin 128) :
    iblk m c 1 t (ix3 (0 : Fin 1) r h) = V m c main_arg0 (ix3 b r h) := by
  obtain ⟨-, -, -, k0, k1, k2, -⟩ := idx_facts t
  show V m c main_arg0 (((cfg0.win 1).blk t).view.emb (ix3 (0 : Fin 1) r h)) = _
  refine congrArg (V m c main_arg0) (funext fun a => Fin.ext ?_)
  match a with
  | ⟨0, _⟩ => show win0_1.index t (0 : Fin 3) * 1 + 1 * 0 = b.val; omega
  | ⟨1, _⟩ => show win0_1.index t (1 : Fin 3) * 2048 + 1 * r.val = r.val; omega
  | ⟨2, _⟩ => show win0_1.index t (2 : Fin 3) * 128 + 1 * h.val = h.val; omega

/-- What a point writes back is its block of `outK` of the argument array. -/
theorem flushed_eq (c : Dev nD) (t : Fin cfg0.N) :
    (dats m 0 c).flushed 2 t = ((cfg0.win 2).blk t).view.read (Elt Ideal) (SelfAttn.outK (V m c main_arg0)) := by
  show (cfg0.win 2).cut (grid0.coords t) ((dats m 0 c).after 2 t) = _
  rw [after_out]
  obtain ⟨-, -, -, -, -, -, o0, o1, o2, lb, lh⟩ := idx_facts t
  funext (j : S1x1024x128.Idx)
  obtain ⟨z, r, h, rfl⟩ : ∃ (z : Fin 1) (r : Fin 1024) (h : Fin 128), j = ix3 z r h := ⟨j 0, j 1, j 2, eq_ix3 j⟩
  obtain rfl : z = 0 := Subsingleton.elim _ _
  show k0_pay1 (F := Ideal) (grid0.coords t) (iblk m c 0 t) (iblk m c 1 t) (ix3 (0 : Fin 1) r h)
    = SelfAttn.outK (V m c main_arg0) (((cfg0.win 2).blk t).view.emb (ix3 (0 : Fin 1) r h))
  rw [payload_apply (V m c main_arg0) (grid0.coords t) ⟨(grid0.coords t 0).val, lb⟩ ⟨(grid0.coords t 1).val, lh⟩ rfl rfl
    (iblk m c 0 t) (iblk m c 1 t) (qblock_apply m c t _ _ rfl rfl) (kvblock_apply m c t _ rfl) r h]
  refine congrArg (SelfAttn.outK (V m c main_arg0)) (funext fun a => Fin.ext ?_)
  match a with
  | ⟨0, _⟩ => show (grid0.coords t 0).val = win0_2.index t (0 : Fin 3) * 1 + 1 * 0; omega
  | ⟨1, _⟩ => show (grid0.coords t 1).val * 1024 + r.val = win0_2.index t (1 : Fin 3) * 1024 + 1 * r.val; omega
  | ⟨2, _⟩ => show h.val = win0_2.index t (2 : Fin 3) * 128 + 1 * h.val; omega

/-- An index of the result array is in a point's block iff each coordinate is in the block's range. -/
theorem mem_blk (t : Fin cfg0.N) (i : S16x2048x128.Idx) :
    i ∈ ((cfg0.win 2).blk t).view.set ↔ ∀ a : Fin 3, win0_2.index t a * S1x1024x128.size a ≤ (i a).val
      ∧ (i a).val < win0_2.index t a * S1x1024x128.size a + S1x1024x128.size a := by
  show i ∈ ((View.whole main_v0).slice (win0_2.rect t)).set ↔ _
  rw [View.set_slice_whole, Rect.mem_set_unit]
  exact Iff.rfl

/-- The 32 blocks cover the result array: row `r` of batch entry `b` is in the block of point `(b, r / 1024)`. -/
theorem cover (i : S16x2048x128.Idx) :
    ∃ t : Fin cfg0.N, (cfg0.win 2).flush t = true ∧ i ∈ ((cfg0.win 2).blk t).view.set := by
  have h0 : (i 0).val < 16 := (i 0).isLt
  have h1 : (i 1).val < 2048 := (i 1).isLt
  have h2 : (i 2).val < 128 := (i 2).isLt
  obtain ⟨t, hb, hh⟩ := point_of ⟨(i 0).val, h0⟩ ⟨(i 1).val / 1024, by omega⟩
  obtain ⟨-, -, -, -, -, -, o0, o1, o2, -⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; simp only at hb; omega
  | ⟨1, _⟩ => show win0_2.index t (1 : Fin 3) * 1024 ≤ (i 1).val ∧ (i 1).val < win0_2.index t (1 : Fin 3) * 1024 + 1024; simp only at hh; omega
  | ⟨2, _⟩ => show win0_2.index t (2 : Fin 3) * 128 ≤ (i 2).val ∧ (i 2).val < win0_2.index t (2 : Fin 3) * 128 + 128; omega

/-- The result array after the run. -/
theorem final (c : Dev nD) : (dats m 0 c).arrAt 2 cfg0.N = SelfAttn.outK (V m c main_arg0) :=
  (dats m 0 c).arrAt_eq_of_cover 2 _ (fun t _ => flushed_eq m c t) cover

/-- The run, read: the result array at `outK` of the argument array, the argument array unchanged. -/
theorem run : θ_run defs (onTc (τ := τ) (main (F := Ideal))) ⟨m, fun _ => 0, ρ⟩ fun r => ∀ c : Dev nD,
      r.2.mem ((c.tc : Thread nD τ).loc main_v0) = SelfAttn.outK (m ((c.tc : Thread nD τ).loc main_arg0))
      ∧ r.2.mem ((c.tc : Thread nD τ).loc main_arg0) = m ((c.tc : Thread nD τ).loc main_arg0) :=
  (θ_run defs _ _).mono (fun r h c => ⟨(h c 2).trans (final m c),
      (h c 0).trans (((dats m 0 c).arrAt_in 0 rfl _).trans (A_eq m c 0))⟩)
    (run_main m ρ)

end Cert.KernelIdeal.Hand

end
-- ==== Proof.RefIsSpec.lean ====
/-
  The reference program computes the function `outR` of the specification.

  The reference is read one operation at a time at explicit coordinates: the scaled inner product of two rows of a batch
  entry; the diagonal mask (two row numbers below 2048, compared as 32-bit words, are equal words exactly when they are equal
  numbers); the masked score; a row's maximum as the fold of `max` over the row; the weights, their total, the normalised
  weights; and the weighted sum of the rows.
-/
import proofs.«168816_j9474697855745_2_alg».proof.Proof.Gen.ReferenceIdeal.Read
import proofs.«168816_j9474697855745_2_alg».proof.Proof.Spec
import proofs.«168816_j9474697855745_2_alg».proof.Proof.LibKeepdims

noncomputable section

namespace Cert.ReferenceIdeal.RefValue

open Cert.ReferenceIdeal Cert.ReferenceIdeal.Gen Cert.ReferenceIdeal.Read Cert.SelfAttn
open Idealize.ShloMosaic Idealize.ShloMosaic.ValueIdx

/-- The reference's argument: a `[16, 2048, 128]` array of extended reals. -/
abbrev Arg : Type := (⟨S16x2048x128, .f32⟩ : BufTy).Contents (Elt Ideal)

/-! ## Words of row numbers -/

/-- Two numbers below 2048 are equal as 32-bit words exactly when they are equal. -/
theorem ofNat_eq_ofNat_iff {a b : Nat} (ha : a < 2048) (hb : b < 2048) :
    BitVec.ofNat 32 a = BitVec.ofNat 32 b ↔ a = b := by
  constructor
  · intro h
    have h' := congrArg BitVec.toNat h
    simp only [BitVec.toNat_ofNat] at h'
    omega
  · intro h; rw [h]

/-- The comparison word of the diagonal test at row `r`, column `c`. -/
theorem cmp_word (r c : Fin 2048) :
    IntOp.cmpi .eq (IntOp.addi (BitVec.ofNat 32 r.val) 0#32) (BitVec.ofNat 32 c.val) = if r = c then 1#1 else 0#1 := by
  unfold IntOp.cmpi IntOp.addi
  rw [BitVec.add_zero]
  by_cases h : r = c
  · rw [if_pos h, h]; simp
  · rw [if_neg h]
    have hne : ¬ BitVec.ofNat 32 r.val = BitVec.ofNat 32 c.val := fun e =>
      h (Fin.ext ((ofNat_eq_ofNat_iff r.isLt c.isLt).mp e))
    rw [show (BitVec.ofNat 32 r.val == BitVec.ofNat 32 c.val) = false from beq_eq_false_iff_ne.mpr hne]
    rfl

/-! ## The scaled inner product -/

/-- The inner product of rows `r` and `c` of batch entry `b`. -/
theorem v0_at (x0 : Arg) (b : Fin 16) (r c : Fin 2048) :
    val_main_v0 (F := Ideal) x0 (ix3 b r c) = ∑ h : Fin 128, x0 (ix3 b r h) * x0 (ix3 b c h) := by
  rw [val_main_v0_apply]
  refine Finset.sum_congr rfl fun k _ => ?_
  have el : lidx_main_v0 (ix3 b r c) k = ix3 b r k :=
    funext fun a => Fin.ext (by match a with | ⟨0, _⟩ => rfl | ⟨1, _⟩ => rfl | ⟨2, _⟩ => rfl)
  have er : ridx_main_v0 (ix3 b r c) k = ix3 b c k :=
    funext fun a => Fin.ext (by match a with | ⟨0, _⟩ => rfl | ⟨1, _⟩ => rfl | ⟨2, _⟩ => rfl)
  rw [el, er]

/-- The inner product, scaled. -/
theorem v2_at (x0 : Arg) (b : Fin 16) (r c : Fin 2048) :
    val_main_v2 (F := Ideal) x0 (ix3 b r c) = (∑ h : Fin 128, x0 (ix3 b r h) * x0 (ix3 b c h)) * scale := by
  rw [val_main_v2_apply, v0_at, val_main_v1_apply, val_main_cst_apply]
  rfl

/-! ## The diagonal mask and the masked score -/

/-- The mask's bit at `(b, r, c)`: set exactly on the diagonal. -/
theorem mask_at (b : Fin 16) (r c : Fin 2048) :
    val_main_call0_v0 (F := Ideal) (ix3 b r c) = if r = c then 1#1 else 0#1 := by
  rw [val_main_call0_v0_apply, val_main_v8_apply, val_main_v7_apply, val_main_v6_apply, val_main_v3_apply,
    val_main_v5_apply, val_main_c_apply, val_main_v4_apply]
  exact cmp_word r c

/-- The value written on the diagonal. -/
theorem fill_at (b : Fin 16) (r c : Fin 2048) :
    val_main_call0_v1 (F := Ideal) (ix3 b r c) = maskVal := by
  rw [val_main_call0_v1_apply, val_main_cst_0_apply]
  rfl

/-- The masked score is the specification's. -/
theorem v9_at (x0 : Arg) (b : Fin 16) (r c : Fin 2048) :
    val_main_v9 (F := Ideal) x0 (ix3 b r c) = scoreR x0 b r c := by
  rw [val_main_v9_apply, mask_at, fill_at, v2_at]
  unfold scoreR
  by_cases h : r = c
  · rw [if_pos h, if_pos h, select_one]
  · rw [if_neg h, if_neg h, select_zero]

/-! ## The row maximum -/

/-- The source index over `(b, r)` with column `k`. -/
theorem lift_at (h : S16x2048x2048.Reduces [2] S16x2048) (b : Fin 16) (r k : Fin 2048) :
    h.lift (ix2 b r) k = ix3 b r k :=
  funext fun a => Fin.ext (by match a with | ⟨0, _⟩ => rfl | ⟨1, _⟩ => rfl | ⟨2, _⟩ => rfl)

/-- A row's maximum is the fold of `max` over the row's masked scores, from `-∞`. -/
theorem v10_at (x0 : Arg) (b : Fin 16) (r : Fin 2048) :
    val_main_v10 (F := Ideal) x0 (ix2 b r) = rowMax (scoreR x0 b r) := by
  have hred : S16x2048x2048.Reduces [2] S16x2048 := by decide
  unfold val_main_v10
  refine (Host.reduce_eq_fold_single (α := Ideal .f32) (s := S16x2048x2048) (t := S16x2048) (a := 2) (u := S_)
    (FloatOps.maximumf (F := Ideal) (φ := .f32)) (val_main_v9 (F := Ideal) x0) (val_main_cst_1 (F := Ideal))
    reducesTo_S16x2048x2048_S16x2048_d2 hred h_S_ (ix2 b r)).trans ?_
  show (Finset.univ : Finset (Fin 2048)).fold max negInf (fun k => val_main_v9 (F := Ideal) x0 (hred.lift (ix2 b r) k))
    = (Finset.univ : Finset (Fin 2048)).fold max negInf (scoreR x0 b r)
  refine Finset.fold_congr fun k _ => ?_
  exact (congrArg (val_main_v9 (F := Ideal) x0) (lift_at hred b r k)).trans (v9_at x0 b r k)

/-- The maximum taken once more against `-∞`. -/
theorem v12_at (x0 : Arg) (b : Fin 16) (r : Fin 2048) :
    val_main_v12 (F := Ideal) x0 (ix2 b r) = max negInf (rowMax (scoreR x0 b r)) := by
  rw [val_main_v12_apply, v10_at, val_main_v11_apply, val_main_cst_2_apply]
  rfl

/-- The row's maximum, read at every column of the row. -/
theorem v14_at (x0 : Arg) (b : Fin 16) (r c : Fin 2048) :
    val_main_v14 (F := Ideal) x0 (ix3 b r c) = max negInf (rowMax (scoreR x0 b r)) := by
  rw [val_main_v14_apply, val_main_v13_apply]
  have e : idx_main_v13 (idx_main_v14 (ix3 b r c)) = ix2 b r :=
    funext fun a => Fin.ext (by match a with | ⟨0, _⟩ => rfl | ⟨1, _⟩ => rfl)
  rw [e, v12_at]

/-! ## The weights, their total, the normalised weights -/

/-- The weight of row `c` for row `r`. -/
theorem v16_at (x0 : Arg) (b : Fin 16) (r c : Fin 2048) :
    val_main_v16 (F := Ideal) x0 (ix3 b r c) = wR x0 b r c := by
  rw [val_main_v16_apply, val_main_v15_apply, v9_at, v14_at]
  rfl

/-- The total of a row's weights, from the initial value `0`. -/
theorem v17_at (x0 : Arg) (b : Fin 16) (r : Fin 2048) :
    val_main_v17 (F := Ideal) x0 (ix2 b r) = zeroW + ∑ c' : Fin 2048, wR x0 b r c' := by
  rw [val_main_v17_apply]
  refine congrArg₂ (· + ·) rfl (Finset.sum_congr rfl fun k _ => ?_)
  have e : idx_main_v17 (ix2 b r) k = ix3 b r k :=
    funext fun a => Fin.ext (by match a with | ⟨0, _⟩ => rfl | ⟨1, _⟩ => rfl | ⟨2, _⟩ => rfl)
  rw [e, v16_at]

/-- The total, read at every column of the row. -/
theorem v19_at (x0 : Arg) (b : Fin 16) (r c : Fin 2048) :
    val_main_v19 (F := Ideal) x0 (ix3 b r c) = zeroW + ∑ c' : Fin 2048, wR x0 b r c' := by
  rw [val_main_v19_apply, val_main_v18_apply]
  have e : idx_main_v18 (idx_main_v19 (ix3 b r c)) = ix2 b r :=
    funext fun a => Fin.ext (by match a with | ⟨0, _⟩ => rfl | ⟨1, _⟩ => rfl)
  rw [e, v17_at]

/-- The normalised weight. -/
theorem v20_at (x0 : Arg) (b : Fin 16) (r c : Fin 2048) :
    val_main_v20 (F := Ideal) x0 (ix3 b r c)
      = Ideal.div (wR x0 b r c) (zeroW + ∑ c' : Fin 2048, wR x0 b r c') := by
  rw [val_main_v20_apply, v16_at, v19_at]
  rfl

/-! ## The result -/

/-- The result at `(b, r, h)`: the sum over the rows of each normalised weight times the row's entry `h`. -/
theorem v21_at (x0 : Arg) (b : Fin 16) (r : Fin 2048) (h : Fin 128) :
    val_main_v21 (F := Ideal) x0 (ix3 b r h)
      = ∑ c : Fin 2048, Ideal.div (wR x0 b r c) (zeroW + ∑ c' : Fin 2048, wR x0 b r c') * x0 (ix3 b c h) := by
  rw [val_main_v21_apply]
  refine Finset.sum_congr rfl fun k _ => ?_
  have el : lidx_main_v21 (ix3 b r h) k = ix3 b r k :=
    funext fun a => Fin.ext (by match a with | ⟨0, _⟩ => rfl | ⟨1, _⟩ => rfl | ⟨2, _⟩ => rfl)
  have er : ridx_main_v21 (ix3 b r h) k = ix3 b k h :=
    funext fun a => Fin.ext (by match a with | ⟨0, _⟩ => rfl | ⟨1, _⟩ => rfl | ⟨2, _⟩ => rfl)
  rw [el, er, v20_at]

/-- The reference program computes `outR`. -/
theorem ref_is_outR (x0 : (⟨Cert.ReferenceIdeal.S16x2048x128, .f32⟩ : BufTy).Contents (Elt Ideal)) :
    Cert.ReferenceIdeal.Read.val_main_v21 (F := Ideal) x0 = Cert.SelfAttn.outR x0 := by
  funext i
  obtain ⟨b, r, h, rfl⟩ : ∃ b r h, i = ix3 b r h := ⟨i 0, i 1, i 2, eq_ix3 i⟩
  rw [v21_at]
  rfl

end Cert.ReferenceIdeal.RefValue

end
-- ==== Proof.SpecLaw.lean ====
/-
  The two arrangements of masked self-attention written out in the specification agree on arrays of real
  numbers.

  The argument is carried out on the real line. The scale and the diagonal value are real numbers, so on a real
  array every score is a real number, and the two ways of scaling an inner product agree because multiplication
  distributes over a finite sum of reals. A row's maximum, the fold of 'max' from the bottom element over 2048
  real numbers, is a real number; taking 'max' with the bottom element once more changes nothing. Hence every
  weight is the exponential of a real number, a positive real, and the weights' total is a positive real. Dividing
  by a nonzero real is multiplying by its reciprocal, and the remaining identity
  '(∑ w c * v c) * (1 / l) = ∑ (w c * (1 / l)) * v c' is distributivity on the reals again.
-/
import proofs.«168816_j9474697855745_2_alg».proof.Proof.Spec
import Idealize.ShloMosaic.PureOps.Ideal.Laws

noncomputable section

namespace Cert.SelfAttn

open Idealize.ShloMosaic Idealize.ShloMosaic.ValueIdx

/-! ## Coercion from the reals and finite sums, maxima -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the larger of two reals is the larger of the coercions. -/
theorem coe_max (a b : ℝ) : ((max a b : ℝ) : EReal) = max (a : EReal) (b : EReal) :=
  EReal.coe_strictMono.monotone.map_max

/-- The fold of 'max' from the bottom element over a nonempty finite family of reals is a real. -/
theorem fold_max_real {ι : Type*} (f : ι → ℝ) (s : Finset ι) (hs : s.Nonempty) :
    ∃ m : ℝ, s.fold max (⊥ : EReal) (fun i => (f i : EReal)) = (m : EReal) := by
  induction hs using Finset.Nonempty.cons_induction with
  | singleton a => exact ⟨f a, by simp⟩
  | cons a s ha hs ih =>
    obtain ⟨m, hm⟩ := ih
    exact ⟨max (f a) m, by rw [Finset.fold_cons, hm, coe_max]⟩

/-! ## The constants -/

/-- A pattern whose exponent field is not all ones denotes a real number. -/
theorem ieee_real (e m : Nat) {w : Nat} (b : BitVec w) (h : (b.extractLsb' m e).toNat ≠ 2 ^ e - 1) :
    ∃ x : ℝ, Ideal.ieee e m b = (x : EReal) := by
  unfold Ideal.ieee
  simp only [if_neg h]
  split_ifs <;> exact ⟨_, rfl⟩

theorem scale_real : ∃ s : ℝ, scale = (s : EReal) :=
  ieee_real 8 23 (0x3DB504F3#32 : BitVec 32) (by decide)
theorem maskVal_real : ∃ m : ℝ, maskVal = (m : EReal) :=
  ieee_real 8 23 (0xCE6E6B28#32 : BitVec 32) (by decide)
theorem negInf_eq : negInf = ⊥ := by simp [negInf, Ideal.ofBits, Ideal.ieee]
theorem oneW_eq : oneW = 1 := by
  simp [oneW, Ideal.ofBits, Ideal.ieee]
  rw [← EReal.coe_mul, ← EReal.coe_one]
  congr 1
  norm_num
theorem zeroW_eq : zeroW = 0 := Ideal.ofBits_zero_f32

/-! ## The scores on a real array -/

/-- The score of row 'r' against row 'c' on a real array, as a real number. -/
def scoreReal (qr : QIdx → ℝ) (sc mv : ℝ) (b : Fin 16) (r c : Fin 2048) : ℝ :=
  if r = c then mv else (∑ h : Fin 128, qr (ix3 b r h) * qr (ix3 b c h)) * sc

/-- Scaling the query row first gives the real score: the scale comes out of the inner product. -/
theorem scoreK_coe (q : QIdx → EReal) (qr : QIdx → ℝ) (hq : ∀ i, q i = (qr i : EReal)) (sc mv : ℝ)
    (hs : scale = (sc : EReal)) (hm : maskVal = (mv : EReal)) (b : Fin 16) (r c : Fin 2048) :
    scoreK q b r c = ((scoreReal qr sc mv b r c : ℝ) : EReal) := by
  unfold scoreK scoreReal
  split_ifs with h
  · exact hm
  · simp only [hq, hs, ← EReal.coe_mul, ← coe_finset_sum]
    congr 1
    rw [Finset.sum_mul]
    exact Finset.sum_congr rfl (fun h _ => by ring)

/-- Scaling the inner product gives the real score. -/
theorem scoreR_coe (q : QIdx → EReal) (qr : QIdx → ℝ) (hq : ∀ i, q i = (qr i : EReal)) (sc mv : ℝ)
    (hs : scale = (sc : EReal)) (hm : maskVal = (mv : EReal)) (b : Fin 16) (r c : Fin 2048) :
    scoreR q b r c = ((scoreReal qr sc mv b r c : ℝ) : EReal) := by
  unfold scoreR scoreReal
  split_ifs with h
  · exact hm
  · simp only [hq, hs, ← EReal.coe_mul, ← coe_finset_sum]

/-! ## Normalising last and normalising each weight -/

/-- For real weights with a nonzero total, multiplying the weighted sum by the reciprocal of the total is
    summing with each weight divided by the total. -/
theorem weighted_eq {n : Nat} (w v : Fin n → ℝ) (hl : (∑ c, w c) ≠ 0) :
    (∑ c, (w c : EReal) * (v c : EReal)) * Ideal.div 1 (∑ c, (w c : EReal))
      = ∑ c, Ideal.div (w c : EReal) (0 + ∑ c', (w c' : EReal)) * (v c : EReal) := by
  rw [zero_add, ← coe_finset_sum, Ideal.div_coe hl, one_mul]
  simp only [Ideal.div_coe hl, ← EReal.coe_mul, ← coe_finset_sum]
  congr 1
  rw [Finset.sum_mul]
  exact Finset.sum_congr rfl (fun c _ => by ring)

/-! ## The two arrangements agree -/

/-- On an array of real numbers the two arrangements of masked self-attention give the same output. -/
theorem outK_eq_outR (q : QIdx → EReal) (hq : ∀ i, ∃ x : ℝ, q i = (x : EReal)) : outK q = outR q := by
  choose qr hqr using hq
  obtain ⟨sc, hs⟩ := scale_real
  obtain ⟨mv, hm⟩ := maskVal_real
  funext i
  -- Both score rows are the coercion of one row of real numbers.
  have hK : scoreK q (i 0) (i 1) = fun c => ((scoreReal qr sc mv (i 0) (i 1) c : ℝ) : EReal) :=
    funext (scoreK_coe q qr hqr sc mv hs hm (i 0) (i 1))
  have hR : scoreR q (i 0) (i 1) = fun c => ((scoreReal qr sc mv (i 0) (i 1) c : ℝ) : EReal) :=
    funext (scoreR_coe q qr hqr sc mv hs hm (i 0) (i 1))
  -- The row's maximum is a real number.
  obtain ⟨m, hmax⟩ := fold_max_real (scoreReal qr sc mv (i 0) (i 1)) Finset.univ Finset.univ_nonempty
  -- Every weight is the exponential of a real number.
  have hwK : ∀ c, wK q (i 0) (i 1) c = ((Real.exp (scoreReal qr sc mv (i 0) (i 1) c - m) : ℝ) : EReal) := by
    intro c
    unfold wK rowMax
    rw [hK, negInf_eq, hmax, ← EReal.coe_sub, Ideal.exp_coe]
  have hwR : ∀ c, wR q (i 0) (i 1) c = ((Real.exp (scoreReal qr sc mv (i 0) (i 1) c - m) : ℝ) : EReal) := by
    intro c
    unfold wR rowMax
    rw [hR, negInf_eq, hmax, max_eq_right bot_le, ← EReal.coe_sub, Ideal.exp_coe]
  unfold outK outR
  simp only [hwK, hwR, hqr, oneW_eq, zeroW_eq]
  exact weighted_eq _ _ (ne_of_gt (Finset.sum_pos (fun c _ => Real.exp_pos _) Finset.univ_nonempty))

end Cert.SelfAttn

end
-- ==== Proof.FiniteInputs.lean ====
/-
  The printed precondition says that every entry of the input array is finite: it compares the absolute value
  of each entry with positive infinity and takes the conjunction over all entries. Read on the extended reals,
  an entry whose absolute value 'max x (-x)' lies strictly below the top element is neither the bottom nor the
  top element, so it is a real number.
-/
import proofs.«168816_j9474697855745_2_alg».proof.Pre_finite_inputs
import Idealize.ShloMosaic.Lib.ReduceAll
import Idealize.ShloMosaic.Lib.ValueIdx
import Idealize.ShloMosaic.PureOps.Ideal.Laws

noncomputable section

namespace Cert.SelfAttn

open Idealize.ShloMosaic Idealize.ShloMosaic.ValueIdx

/-- The shape with no axes has a single index. -/
instance subsingleton_scalarIdx : Subsingleton Cert.Pre_finite_inputs.S_.Idx :=
  ⟨fun _ _ => funext fun d => d.elim0⟩

/-- The word the precondition compares against denotes positive infinity. -/
theorem posInf_eq : Ideal.ofBits .f32 0x7F800000#32 = (⊤ : EReal) := by
  simp [Ideal.ofBits, Ideal.ieee]

/-- A truth value whose one-bit word is 1 is true. -/
theorem ofBool_eq_one {b : Bool} (h : BitVec.ofBool b = 1#1) : b = true := by
  cases b
  · exact absurd h (by decide)
  · rfl

/-- An extended real whose absolute value is below the top element is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Under the printed precondition every entry of the input array is a real number. -/
theorem real_of_pre [Cert.Pre_finite_inputs.Facts] (x0 : FVec Ideal Cert.Pre_finite_inputs.S16x2048x128 .f32)
    (h : Cert.Pre_finite_inputs.fn (F := Ideal) x0 = fun _ => 1#1) : ∀ i, ∃ r : ℝ, x0 i = (r : EReal) := by
  intro i
  have h0 := congrFun h ix0
  dsimp only [Cert.Pre_finite_inputs.fn] at h0
  -- The conjunction over all entries is true, so the comparison at entry 'i' is true.
  have hi := Host.reduce_andi_all _ _ _ _ _ h0 i
  have hc : Ideal.cmp .olt (max (x0 i) (-(x0 i))) (Ideal.ofBits .f32 0x7F800000#32) = 1#1 := hi
  rw [posInf_eq] at hc
  have hlt : max (x0 i) (-(x0 i)) < ⊤ := of_decide_eq_true (ofBool_eq_one hc)
  exact real_of_abs_lt_top _ hlt

end Cert.SelfAttn

end
-- ==== Proof.lean ====
/-
  The attention kernel against its reference, at the extended reals.

  Both programs compute, for every batch entry, the self-attention of the 2048 rows of `q[b]` against themselves
  with the diagonal masked: scores are scaled inner products of rows (the diagonal replaced by a fixed large negative
  number), each row's weights are the exponentials of its scores less the row's maximum, and the output row is the
  weighted average of the rows.

  The kernel scales the query row before the inner product, takes the weighted sum of the rows first and multiplies
  by the reciprocal of the weights' total last, on blocks of 1024 query rows. The reference scales the inner product,
  divides every weight by the total and then sums, on whole arrays. On arrays of real numbers the two arrangements
  agree: the scale moves across the finite sum, every weight is a positive real so the total is a nonzero real, and
  the reciprocal of the total moves across the finite sum. That is `SelfAttn.outK_eq_outR`; the precondition supplies
  that the entries are real numbers.

  The kernel's side: its frame is proved by hand (two of its windows read the same array, which is dealt to them in
  half shares); the result array after the run is `SelfAttn.outK` of the argument (KernelIdealValue). The reference's
  side: its run is the generated one, read stage by stage to `SelfAttn.outR` (RefIsSpec). The kernel's idealization
  differs from the kernel as printed by one widening of a narrowing, which is the identity on extended reals.
-/
import proofs.«168816_j9474697855745_2_alg».proof.Defs
import proofs.«168816_j9474697855745_2_alg».proof.Proof.Gen.Kernel
import proofs.«168816_j9474697855745_2_alg».proof.Proof.Gen.KernelIdeal
import proofs.«168816_j9474697855745_2_alg».proof.Proof.Gen.ReferenceIdeal
import proofs.«168816_j9474697855745_2_alg».proof.Proof.Gen.Pre_finite_inputs
import proofs.«168816_j9474697855745_2_alg».proof.Proof.Gen.ReferenceIdeal.Read
import proofs.«168816_j9474697855745_2_alg».proof.Proof.KernelFrame
import proofs.«168816_j9474697855745_2_alg».proof.Proof.KernelIdealValue
import proofs.«168816_j9474697855745_2_alg».proof.Proof.RefIsSpec
import proofs.«168816_j9474697855745_2_alg».proof.Proof.SpecLaw
import proofs.«168816_j9474697855745_2_alg».proof.Proof.FiniteInputs
import Idealize.ShloMosaic.Adequacy
import Idealize.ShloMosaic.Init

noncomputable section

namespace Cert.Proof

open Idealize.ShloMosaic Idealize.SL.Sem

/-- The kernel as printed runs and leaves its argument unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Narrowing the weights to bf16 and widening them back is the identity on extended reals. -/
theorem preserves : Cert.preserves_Kernel_KernelIdeal := IdealRules.truncf_extf.statement _ .f32 .bf16

/-- The two idealized programs end with equal results: the kernel's array is `outK` of the argument, the
    reference's is `outR` of the same argument, and the argument's entries are real numbers. -/
theorem algebraic : Cert.algebraic_KernelIdeal_ReferenceIdeal := by
  intro m ρ m' ρ' hpre hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v21_eq (F := Ideal) _).trans ?_
  rw [Cert.ReferenceIdeal.RefValue.ref_is_outR, hagree c]
  exact (Cert.SelfAttn.outK_eq_outR _ (Cert.SelfAttn.real_of_pre _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
